-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4092x4092 : Shape := ⟨2, ![4092, 4092]⟩
abbrev S341x12x341x12 : Shape := ⟨4, ![341, 12, 341, 12]⟩
abbrev S_ : Shape := ⟨0, ![]⟩
abbrev S1 : Shape := ⟨1, ![1]⟩
abbrev S2 : Shape := ⟨1, ![2]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 22
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4092x4092, .f32⟩
  | .hbm, ⟨4, _⟩ => ⟨S341x12x341x12, .f32⟩
  | .hbm, ⟨5, _⟩ => ⟨S341x12x341x12, .f32⟩
  | .hbm, ⟨6, _⟩ => ⟨S341x12x341x12, .f32⟩
  | .hbm, ⟨7, _⟩ => ⟨S_, .f32⟩
  | .hbm, ⟨8, _⟩ => ⟨S341x12x341x12, .f32⟩
  | .hbm, ⟨9, _⟩ => ⟨S341x12x341x12, .f32⟩
  | .hbm, ⟨10, _⟩ => ⟨S4092x4092, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S4096x4096, .f32⟩
  | .hbm, ⟨17, _⟩ => ⟨S8192x4096, .bf16⟩
  | .hbm, ⟨18, _⟩ => ⟨S4096x4096, .bf16⟩
  | .hbm, ⟨19, _⟩ => ⟨S4096x4096, .bf16⟩
  | .hbm, ⟨20, _⟩ => ⟨S1x4096, .f32⟩
  | .hbm, ⟨21, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c : Ref sig .tc := ⟨.hbm, 11, rfl⟩
abbrev main_call0_v7 : Ref sig .tc := ⟨.hbm, 12, rfl⟩
abbrev main_call0_c_0 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4096x4096_S4092x4092_0_0 : S4096x4096.Slices ![0, 0] S4092x4092
  shapeCasts_S4092x4092_S341x12x341x12 : S4092x4092.ShapeCasts S341x12x341x12
  transposes_S341x12x341x12_S341x12x341x12_0_3_2_1 : S341x12x341x12.Transposes [0, 3, 2, 1] S341x12x341x12
  bcast_S_S341x12x341x12 : S_.BroadcastsInDim S341x12x341x12 (![] : Fin 0 → Fin S341x12x341x12.rank)
  shapeCasts_S341x12x341x12_S4092x4092 : S341x12x341x12.ShapeCasts S4092x4092
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  scatter_S4096x4096_S2_S4092x4092_01_n_01_0_wf : ScatterDims.WF S4096x4096 S2 S4092x4092 [0, 1] [] [0, 1] 0
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def scatter_S4096x4096_S2_S4092x4092_01_n_01_0 : ScatterDims S4096x4096 S2 S4092x4092 where
  updateWindowDims := [0, 1]
  insertedWindowDims := []
  scatterDimsToOperandDims := [0, 1]
  indexVectorDim := 0
  wf := scatter_S4096x4096_S2_S4092x4092_01_n_01_0_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_call0_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4092x4092 : Shape := ⟨2, ![4092, 4092]⟩
abbrev S341x12x341x12 : Shape := ⟨4, ![341, 12, 341, 12]⟩
abbrev S_ : Shape := ⟨0, ![]⟩
abbrev S1 : Shape := ⟨1, ![1]⟩
abbrev S2 : Shape := ⟨1, ![2]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4092x4092, .f32⟩
  | .hbm, ⟨4, _⟩ => ⟨S341x12x341x12, .f32⟩
  | .hbm, ⟨5, _⟩ => ⟨S341x12x341x12, .f32⟩
  | .hbm, ⟨6, _⟩ => ⟨S341x12x341x12, .f32⟩
  | .hbm, ⟨7, _⟩ => ⟨S_, .f32⟩
  | .hbm, ⟨8, _⟩ => ⟨S341x12x341x12, .f32⟩
  | .hbm, ⟨9, _⟩ => ⟨S341x12x341x12, .f32⟩
  | .hbm, ⟨10, _⟩ => ⟨S4092x4092, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  slices_S4096x4096_S4092x4092_0_0 : S4096x4096.Slices ![0, 0] S4092x4092
  shapeCasts_S4092x4092_S341x12x341x12 : S4092x4092.ShapeCasts S341x12x341x12
  transposes_S341x12x341x12_S341x12x341x12_0_3_2_1 : S341x12x341x12.Transposes [0, 3, 2, 1] S341x12x341x12
  bcast_S_S341x12x341x12 : S_.BroadcastsInDim S341x12x341x12 (![] : Fin 0 → Fin S341x12x341x12.rank)
  shapeCasts_S341x12x341x12_S4092x4092 : S341x12x341x12.ShapeCasts S4092x4092
  bcast_S_S1 : S_.BroadcastsInDim S1 (![] : Fin 0 → Fin S1.rank)
  concatenates_S1_S1_S2_d0 : Shape.Concatenates [S1, S1] S2 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S2_S4092x4092_01_n_01_0_wf : ScatterDims.WF S4096x4096 S2 S4092x4092 [0, 1] [] [0, 1] 0
  dot_S8192x4096_S4096x4096_S8192x4096_1_1_0_0_n_n_wf : DotDims.WF S8192x4096 S4096x4096 S8192x4096 [1] [1] [0] [0] [] []

variable [Facts₀]

def scatter_S4096x4096_S2_S4092x4092_01_n_01_0 : ScatterDims S4096x4096 S2 S4092x4092 where
  updateWindowDims := [0, 1]
  insertedWindowDims := []
  scatterDimsToOperandDims := [0, 1]
  indexVectorDim := 0
  wf := scatter_S4096x4096_S2_S4092x4092_01_n_01_0_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Linear.lean ====
/-
  A dense linear layer over the extended reals.  For an input matrix `x` (rows × features), a weight matrix `w`
  (outputs × features) and a bias vector `b` (outputs), the layer's value at row `r` and output `o` is

      Σ_k  x[r, k] · w[o, k]   +   b[o].

  The weight is a parameter here: whatever is done to it before the product (a blockwise symmetrization, say)
  is the same function on both sides of a comparison and never has to be opened.
-/
import Idealize.ShloMosaic.PureOps.Ideal
import Idealize.ShloMosaic.Lib.ValueIdx

noncomputable section

namespace Cert.Linear

open Idealize.ShloMosaic Idealize.ShloMosaic.ValueIdx

/-- The layer at one entry: the row of `x` against the row of `w`, summed over the shared feature index, plus the
    bias of that output. -/
def linearAt (x : FVec Ideal ⟨2, ![8192, 4096]⟩ .f32) (w : FVec Ideal ⟨2, ![4096, 4096]⟩ .f32) (b : FVec Ideal ⟨1, ![4096]⟩ .f32)
    (r : Fin 8192) (o : Fin 4096) : EReal :=
  (∑ k : Fin 4096, x (ix2 r k) * w (ix2 o k)) + b (ix1 o)

/-- The layer as one array: entry `(r, o)` is `linearAt x w b r o`. -/
def linear (x : FVec Ideal ⟨2, ![8192, 4096]⟩ .f32) (w : FVec Ideal ⟨2, ![4096, 4096]⟩ .f32) (b : FVec Ideal ⟨1, ![4096]⟩ .f32) :
    FVec Ideal ⟨2, ![8192, 4096]⟩ .f32 :=
  fun i => linearAt x w b (i 0) (i 1)

/-- Read at an index given by its two coordinates. -/
theorem linear_apply (x : FVec Ideal ⟨2, ![8192, 4096]⟩ .f32) (w : FVec Ideal ⟨2, ![4096, 4096]⟩ .f32) (b : FVec Ideal ⟨1, ![4096]⟩ .f32)
    (r : Fin 8192) (o : Fin 4096) :
    linear x w b (ix2 r o) = (∑ k : Fin 4096, x (ix2 r k) * w (ix2 o k)) + b (ix1 o) := rfl

end Cert.Linear

end
-- ==== Proof.RefLinear.lean ====
/-
  The reference program's result is the linear layer of its input, its symmetrized weight and its bias.
  The reference contracts the input's feature axis against the weight's feature axis (both axis 1), so entry (r, o)
  of the product is Σ_k x[r, k] · w[o, k]; the bias is broadcast first to one row and then down the rows, so it
  contributes b[o].  The symmetrized weight (a scatter of the re-laid, averaged core into the weight) is kept as the
  one stage the generated reading names it; nothing here looks inside it.
-/
import proofs.«159672_j25005299597540_2_alg».proof.Proof.Gen.ReferenceIdeal.Read
import proofs.«159672_j25005299597540_2_alg».proof.Proof.Linear

noncomputable section

namespace Cert.ReferenceIdeal.RefValue

open Cert.ReferenceIdeal Cert.ReferenceIdeal.Gen Cert.ReferenceIdeal.Read Idealize.ShloMosaic Idealize.ShloMosaic.ValueIdx

/-- The reference's last stage, as a function of the three arguments, is `linear` of the input, the symmetrized
    weight and the bias. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v14 (F := Ideal) x0 x1 x2 = Cert.Linear.linear x0 (val_main_v10 (F := Ideal) x1) x2 := by
  funext i
  obtain ⟨r, o, rfl⟩ : ∃ (r : Fin 8192) (o : Fin 4096), i = ix2 r o := ⟨i 0, i 1, eq_ix2 i⟩
  have el : ∀ k : Fin 4096, lidx_main_v11 (ix2 r o) k = ix2 r k := fun k => funext fun ax => Fin.ext (by
    match ax with
    | ⟨0, _⟩ => rfl
    | ⟨1, _⟩ => rfl)
  have er : ∀ k : Fin 4096, ridx_main_v11 (ix2 r o) k = ix2 o k := fun k => funext fun ax => Fin.ext (by
    match ax with
    | ⟨0, _⟩ => rfl
    | ⟨1, _⟩ => rfl)
  have eb : idx_main_v12 (idx_main_v13 (ix2 r o)) = ix1 o := funext fun ax => Fin.ext (by
    match ax with
    | ⟨0, _⟩ => rfl)
  rw [val_main_v14_apply, val_main_v11_apply, val_main_v13_apply, val_main_v12_apply, eb, Cert.Linear.linear_apply]
  simp only [el, er]
  rfl

end Cert.ReferenceIdeal.RefValue

end
-- ==== Proof.Body.lean ====
/-
  What the kernel body stores, read at one entry of the output tile.  The body multiplies a 512 × 4096 tile of the
  input by a 4096 × 1024 tile of the (already transposed) weight into a zero accumulator and adds a 1 × 1024 tile of
  the bias to every row.  Over the extended reals the matrix product into zero is the plain sum over the contracted
  index, so entry (p, q) of the stored tile is

      Σ_k  a[p, k] · b[k, q]   +   bias[0, q].
-/
import proofs.«159672_j25005299597540_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The product's dimension record: rows of the left tile against columns of the right tile. -/
abbrev D : DotDims S512x4096 S4096x1024 S512x1024 := dot_S512x4096_S4096x1024_S512x1024_1_0_0_1_n_n

/-- The left operand's index at output (p, q) and contraction index κ has row coordinate p … -/
theorem lhs_row (j : S512x1024.Idx) (κ : D.contr.Idx) : (D.lhsIdx j κ 0).val = (j 0).val := by
  unfold DotDims.lhsIdx
  rw [dif_neg (show ¬(0 : Fin S512x4096.rank) ∈ D.lhsBatch by decide), dif_pos (show (0 : Fin S512x4096.rank) ∈ D.lhsNonContracting by decide)]
  rfl
/-- … and column coordinate the contraction index. -/
theorem lhs_col (j : S512x1024.Idx) (κ : D.contr.Idx) : (D.lhsIdx j κ 1).val = (κ ⟨0, by decide⟩).val :=
  D.lhsIdx_val_of_single rfl j κ
/-- The right operand's index there has row coordinate the contraction index … -/
theorem rhs_row (j : S512x1024.Idx) (κ : D.contr.Idx) : (D.rhsIdx j κ 0).val = (κ ⟨0, by decide⟩).val :=
  D.rhsIdx_val_of_single rfl j κ
/-- … and column coordinate q. -/
theorem rhs_col (j : S512x1024.Idx) (κ : D.contr.Idx) : (D.rhsIdx j κ 1).val = (j 1).val := by
  unfold DotDims.rhsIdx
  rw [dif_neg (show ¬(1 : Fin S4096x1024.rank) ∈ D.rhsBatch by decide), dif_pos (show (1 : Fin S4096x1024.rank) ∈ D.rhsNonContracting by decide)]
  rfl

/-- The tile product into the zero accumulator, at entry (p, q): the sum over k of a[p, k] · b[k, q]. -/
theorem matmul_zero_apply (a : FVec Ideal S512x4096 .bf16) (b : FVec Ideal S4096x1024 .bf16) (p : Fin 512) (q : Fin 1024) :
    matmul (F := Ideal) D none a b (constant S512x1024 .f32 0x00000000#32) (ix2 p q) = ∑ k : Fin 4096, a (ix2 p k) * b (ix2 k q) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun ax => Fin.ext (by
    match ax with
    | ⟨0, _⟩ => exact lhs_row _ _
    | ⟨1, _⟩ => exact (lhs_col _ _).trans hk)
  have er : D.rhsIdx (ix2 p q) ((contrEquiv1 D 4096 rfl rfl).symm k) = ix2 k q := funext fun ax => Fin.ext (by
    match ax with
    | ⟨0, _⟩ => exact (rhs_row _ _).trans hk
    | ⟨1, _⟩ => exact rhs_col _ _)
  rw [el, er]

/-- THE STORED TILE at entry (p, q): the product's sum plus the bias tile's one row at column q. -/
theorem pay_apply (a : FVec Ideal S512x4096 .bf16) (b : FVec Ideal S4096x1024 .bf16) (v : FVec Ideal S1x1024 .f32)
    (p : Fin 512) (q : Fin 1024) :
    k0_pay1 (F := Ideal) a b v (ix2 p q) = (∑ k : Fin 4096, a (ix2 p k) * b (ix2 k q)) + v (ix2 (0 : Fin 1) q) := by
  unfold k0_pay1
  rw [shapeCast_self a, shapeCast_self b, shapeCast_self v]
  refine (addf_apply _ _ _).trans ?_
  rw [matmul_zero_apply a b p q]
  exact congrArg (_ + ·) (broadcastTo_1b_ab_apply v broadcasts_S1x1024_S512x1024 p q)

end Cert.KernelIdeal.Body

end
-- ==== Proof.Entry.lean ====
/-
  What the three input windows' arrays hold when the region is entered, as functions of the launch arguments.
  Before the region the host computes the symmetrized weight (the weight with the averaged, blockwise transposed
  core scattered back in), rounds the input and that weight to the narrower float format — the identity on the
  extended reals —, transposes the weight, and recasts the bias vector as a one-row matrix.  So, entry by entry:

    window 0's array at (r, k)  is  x[r, k];
    window 1's array at (k, o)  is  symW(w)[o, k];
    window 2's array at (0, o)  is  b[o].
-/
import proofs.«159672_j25005299597540_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The symmetrized weight: the weight's leading 4092 × 4092 core, re-laid as 341 × 341 blocks of 12 × 12, averaged
    with its blockwise transpose, laid back and written over the core; the ragged edge strips keep the weight. -/
def symW (w : (⟨S4096x4096, .f32⟩ : BufTy).Contents (Elt F)) : (⟨S4096x4096, .f32⟩ : BufTy).Contents (Elt F) :=
  Host.scatter scatter_S4096x4096_S2_S4092x4092_01_n_01_0 (fun _ b => b) w
    (concatenate S2 0 [⟨S1, (broadcastInDim S1 ![] bcast_S_S1 (constantI S_ 32 0#32))⟩, ⟨S1, (broadcastInDim S1 ![] bcast_S_S1 (constantI S_ 32 0#32))⟩] concatenates_S1_S1_S2_d0)
    (shapeCast _ (mulf (broadcastInDim S341x12x341x12 ![] bcast_S_S341x12x341x12 (constant (F := F) S_ .f32 0x3F000000#32))
      (addf (shapeCast _ (extractStridedSlice S4092x4092 ![0, 0] w slices_S4096x4096_S4092x4092_0_0) shapeCasts_S4092x4092_S341x12x341x12)
        (transpose S341x12x341x12 [0, 3, 2, 1] (shapeCast _ (extractStridedSlice S4092x4092 ![0, 0] w slices_S4096x4096_S4092x4092_0_0) shapeCasts_S4092x4092_S341x12x341x12) transposes_S341x12x341x12_S341x12x341x12_0_3_2_1)))
      shapeCasts_S341x12x341x12_S4092x4092)

/-- Moving a value to an equal type and back is the identity. -/
theorem cast_back {α β : Type} (h : α = β) (h' : β = α) (a : α) : cast h' (cast h a) = a := by
  subst h; rfl

variable (m : (ℓ : Loc nD τ sig) → Buf (Elt F) ℓ)

/-- Window 0's array at region entry: the input, rounded. -/
theorem V_x (c : Dev nD) :
    (V m c main_call0_v11 : S8192x4096.Idx → Elt F .bf16) = truncf .bf16 (m ((c : Thread nD τ).loc main_arg0)) bitsLt_bf16_f32 := by
  dsimp only [Gen.V, Gen.hostOps0]; after_results; exact rfl

/-- Window 1's array at region entry: the symmetrized weight, rounded and transposed. -/
theorem V_w (c : Dev nD) :
    (V m c main_call0_v13 : S4096x4096.Idx → Elt F .bf16)
      = transpose S4096x4096 [1, 0] (truncf .bf16 (symW (m ((c : Thread nD τ).loc main_arg1))) bitsLt_bf16_f32) transposes_S4096x4096_S4096x4096_1_0 := by
  dsimp only [Gen.V, Gen.hostOps0]; after_results
  -- both sides are the transpose of the rounding of one scatter; its three arguments agree one by one
  refine (cast_eq _ _).trans ?_
  refine congrArg (fun z => transpose S4096x4096 [1, 0] z transposes_S4096x4096_S4096x4096_1_0) ?_
  refine (cast_back _ _ _).trans ?_
  refine congrArg (fun z => truncf .bf16 z bitsLt_bf16_f32) ?_
  refine (cast_back _ _ _).trans ?_
  unfold symW
  refine congr (congr (congrArg (Host.scatter scatter_S4096x4096_S2_S4092x4092_01_n_01_0 (fun _ b => b)) ?_) ?_) ?_ <;> rfl

/-- Window 2's array at region entry: the bias as a one-row matrix. -/
theorem V_b (c : Dev nD) :
    (V m c main_call0_v14 : S1x4096.Idx → Elt F .f32) = shapeCast S1x4096 (m ((c : Thread nD τ).loc main_arg2)) shapeCasts_S4096_S1x4096 := by
  dsimp only [Gen.V, Gen.hostOps0]; after_results; rfl

end Cert.KernelIdeal.Entry

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Over the extended reals window 0's array at (r, k) is the input there. -/
theorem V_x_apply (c : Dev nD) (r : Fin 8192) (k : Fin 4096) :
    (V m c main_call0_v11 : S8192x4096.Idx → Elt Ideal .bf16) (ix2 r k)
      = (m ((c : Thread nD τ).loc main_arg0) : S8192x4096.Idx → Elt Ideal .f32) (ix2 r k) := by
  rw [V_x]
  exact truncf_apply _ bitsLt_bf16_f32 (ix2 r k)

/-- Window 1's array at (k, o) is the symmetrized weight at (o, k). -/
theorem V_w_apply (c : Dev nD) (k : Fin 4096) (o : Fin 4096) :
    (V m c main_call0_v13 : S4096x4096.Idx → Elt Ideal .bf16) (ix2 k o)
      = symW (F := Ideal) (m ((c : Thread nD τ).loc main_arg1)) (ix2 o k) := by
  rw [V_w]
  -- the symmetrized weight stays an opaque array: only the transpose and the rounding are read
  obtain ⟨W, hW⟩ : ∃ W : FVec Ideal S4096x4096 .f32, W = symW (F := Ideal) (m ((c : Thread nD τ).loc main_arg1)) := ⟨_, rfl⟩
  rw [← hW]
  exact (transpose_ix2_apply (truncf (F := Ideal) .bf16 W bitsLt_bf16_f32) transposes_S4096x4096_S4096x4096_1_0 k o).trans
    (truncf_apply W bitsLt_bf16_f32 (ix2 o k))

/-- Window 2's array at (0, o) is the bias at o. -/
theorem V_b_apply (c : Dev nD) (u : Fin 1) (o : Fin 4096) :
    (V m c main_call0_v14 : S1x4096.Idx → Elt Ideal .f32) (ix2 u o)
      = (m ((c : Thread nD τ).loc main_arg2) : S4096.Idx → Elt Ideal .f32) (ix1 o) := by
  rw [V_b]
  exact shapeCast_a_1a_apply _ shapeCasts_S4096_S1x4096 u o

end Cert.KernelIdeal.Entry

end
-- ==== Proof.Blocks.lean ====
/-
  From the tiles to the whole array.  The grid has 4 × 16 points; point (j, i) multiplies row tile i of the input
  (512 rows, all 4096 features) by column tile j of the transposed weight (all 4096 features, 1024 outputs), adds
  column tile j of the bias row, and writes tile (i, j) of the output.  So what each point writes back is its tile
  of ONE array — the linear layer of the input, the symmetrized weight and the bias — and the 64 tiles fill the
  8192 × 4096 output: after the run the output array is that layer.
-/
import proofs.«159672_j25005299597540_2_alg».proof.Proof.Gen.KernelIdeal.Value
import proofs.«159672_j25005299597540_2_alg».proof.Proof.Linear
import proofs.«159672_j25005299597540_2_alg».proof.Proof.Body
import proofs.«159672_j25005299597540_2_alg».proof.Proof.Entry

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The layer of the launch arguments: the input against the symmetrized weight, plus the bias. -/
abbrev layer (c : Dev nD) : S8192x4096.Idx → Elt Ideal .f32 :=
  Cert.Linear.linear (m ((c : Thread nD τ).loc main_arg0)) (Entry.symW (F := Ideal) (m ((c : Thread nD τ).loc main_arg1)))
    (m ((c : Thread nD τ).loc main_arg2))

/-- The printed index maps over the 64 grid points: the input's row tile is the output's, over all features; the
    weight's and the bias's column tile is the output's, over all features / the one row; the output's tile indices
    stay in their ranges. -/
theorem tile_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every output tile is some point's. -/
theorem tile_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- Reading ANY array through the input window's block at point `t`: entry (p, k) of the block is the array at row
    (tile row) · 512 + p, feature k. -/
theorem read_in (t : Fin cfg0.N) (A : S8192x4096.Idx → Elt Ideal .bf16) (p : Fin 512) (k : Fin 4096) (r : Fin 8192)
    (hr : r.val = win0_3.index t (0 : Fin 2) * 512 + p.val) :
    (((cfg0.win 0).blk t).view.read (Elt Ideal) A : Vec Ideal S512x4096 .bf16) (ix2 p k) = A (ix2 r k) := by
  obtain ⟨e0, e1, -⟩ := tile_facts t
  show A (((cfg0.win 0).blk t).view.emb (ix2 p k)) = A (ix2 r k)
  refine congrArg A (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Reading ANY array through the weight window's block at point `t`: entry (k, q) of the block is the array at
    feature k, column (tile column) · 1024 + q. -/
theorem read_w (t : Fin cfg0.N) (A : S4096x4096.Idx → Elt Ideal .bf16) (k : Fin 4096) (q : Fin 1024) (o : Fin 4096)
    (ho : o.val = win0_3.index t (1 : Fin 2) * 1024 + q.val) :
    (((cfg0.win 1).blk t).view.read (Elt Ideal) A : Vec Ideal S4096x1024 .bf16) (ix2 k q) = A (ix2 k o) := by
  obtain ⟨-, -, e2, e3, -⟩ := tile_facts t
  show A (((cfg0.win 1).blk t).view.emb (ix2 k q)) = A (ix2 k o)
  refine congrArg A (funext fun a => Fin.ext ?_)
  match a with
  | ⟨0, _⟩ => show win0_1.index t (0 : Fin 2) * 4096 + 1 * k.val = k.val; omega
  | ⟨1, _⟩ => show win0_1.index t (1 : Fin 2) * 1024 + 1 * q.val = o.val; omega

/-- Reading ANY one-row array through the bias window's block at point `t`: entry (0, q) of the block is the array at
    (0, (tile column) · 1024 + q). -/
theorem read_b (t : Fin cfg0.N) (A : S1x4096.Idx → Elt Ideal .f32) (q : Fin 1024) (o : Fin 4096)
    (ho : o.val = win0_3.index t (1 : Fin 2) * 1024 + q.val) :
    (((cfg0.win 2).blk t).view.read (Elt Ideal) A : Vec Ideal S1x1024 .f32) (ix2 (0 : Fin 1) q) = A (ix2 (0 : Fin 1) o) := by
  obtain ⟨-, -, -, -, e4, e5, -⟩ := tile_facts t
  show A (((cfg0.win 2).blk t).view.emb (ix2 (0 : Fin 1) q)) = A (ix2 (0 : Fin 1) o)
  refine congrArg A (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- The three windows' arrays are the buffers the host prefix wrote (the windows name them by position). -/
theorem arr0 (c : Dev nD) : (V m c (Pipeline.arrRef spec0 0) : S8192x4096.Idx → Elt Ideal .bf16) = V m c main_call0_v11 := rfl
theorem arr1 (c : Dev nD) : (V m c (Pipeline.arrRef spec0 1) : S4096x4096.Idx → Elt Ideal .bf16) = V m c main_call0_v13 := rfl
theorem arr2 (c : Dev nD) : (V m c (Pipeline.arrRef spec0 2) : S1x4096.Idx → Elt Ideal .f32) = V m c main_call0_v14 := rfl

/-- The input's tile at point `t`, entry (p, k): the input at row (tile row) · 512 + p, feature k. -/
theorem in_tile (c : Dev nD) (t : Fin cfg0.N) (p : Fin 512) (k : Fin 4096) (r : Fin 8192)
    (hr : r.val = win0_3.index t (0 : Fin 2) * 512 + p.val) :
    (iblk m c 0 t : Vec Ideal S512x4096 .bf16) (ix2 p k)
      = (m ((c : Thread nD τ).loc main_arg0) : S8192x4096.Idx → Elt Ideal .f32) (ix2 r k) := by
  unfold iblk
  exact (read_in t (V m c (Pipeline.arrRef spec0 0)) p k r hr).trans
    ((congrFun (arr0 m c) (ix2 r k)).trans (Entry.V_x_apply m c r k))

/-- The weight's tile at point `t`, entry (k, q): the symmetrized weight at output (tile column) · 1024 + q, feature k. -/
theorem w_tile (c : Dev nD) (t : Fin cfg0.N) (k : Fin 4096) (q : Fin 1024) (o : Fin 4096)
    (ho : o.val = win0_3.index t (1 : Fin 2) * 1024 + q.val) :
    (iblk m c 1 t : Vec Ideal S4096x1024 .bf16) (ix2 k q)
      = Entry.symW (F := Ideal) (m ((c : Thread nD τ).loc main_arg1)) (ix2 o k) := by
  unfold iblk
  exact (read_w t (V m c (Pipeline.arrRef spec0 1)) k q o ho).trans
    ((congrFun (arr1 m c) (ix2 k o)).trans (Entry.V_w_apply m c k o))

/-- The bias's tile at point `t`, entry (0, q): the bias at output (tile column) · 1024 + q. -/
theorem b_tile (c : Dev nD) (t : Fin cfg0.N) (q : Fin 1024) (o : Fin 4096)
    (ho : o.val = win0_3.index t (1 : Fin 2) * 1024 + q.val) :
    (iblk m c 2 t : Vec Ideal S1x1024 .f32) (ix2 (0 : Fin 1) q)
      = (m ((c : Thread nD τ).loc main_arg2) : S4096.Idx → Elt Ideal .f32) (ix1 o) := by
  unfold iblk
  exact (read_b t (V m c (Pipeline.arrRef spec0 2)) q o ho).trans
    ((congrFun (arr2 m c) (ix2 (0 : Fin 1) o)).trans (Entry.V_b_apply m c (0 : Fin 1) o))

/-- What the body stores at point `t`, entry (p, q), is the layer at row (tile row) · 512 + p, output
    (tile column) · 1024 + q. -/
theorem stored_entry (c : Dev nD) (t : Fin cfg0.N) (p : Fin 512) (q : Fin 1024) (r : Fin 8192) (o : Fin 4096)
    (hr : r.val = win0_3.index t (0 : Fin 2) * 512 + p.val) (ho : o.val = win0_3.index t (1 : Fin 2) * 1024 + q.val) :
    k0_pay1 (F := Ideal) (iblk m c 0 t) (iblk m c 1 t) (iblk m c 2 t) (ix2 p q) = layer m c (ix2 r o) := by
  refine (Body.pay_apply (iblk m c 0 t) (iblk m c 1 t) (iblk m c 2 t) p q).trans ?_
  refine Eq.trans ?_ (Cert.Linear.linear_apply _ _ _ r o).symm
  rw [b_tile m c t q o ho]
  refine congrArg (· + _) (Finset.sum_congr rfl fun k _ => ?_)
  rw [in_tile m c t p k r hr, w_tile m c t k q o ho]

/-- WHAT POINT `t` WRITES BACK is tile `t` of the layer. -/
theorem flushed_eq (c : Dev nD) (t : Fin cfg0.N) :
    (dats m 0 c).flushed 3 t = ((cfg0.win 3).blk t).view.read (Elt Ideal) (layer m c) := by
  show (cfg0.win 3).cut (grid0.coords t) ((dats m 0 c).after 3 t) = _
  rw [after0_3]
  unfold out0_3
  rw [View.canon_unit_zero hz]
  simp only [View.ld_unit_zero (S := S512x4096) hz, View.ld_unit_zero (S := S4096x1024) hz, View.ld_unit_zero (S := S1x1024) hz]
  obtain ⟨-, -, -, -, -, -, b0, b1⟩ := tile_facts t
  funext j
  obtain ⟨p, q, rfl⟩ : ∃ (p : Fin 512) (q : Fin 1024), j = ix2 p q :=
    ⟨⟨(j 0).val, (j 0).isLt⟩, ⟨(j 1).val, (j 1).isLt⟩, funext fun a => by
      match a with
      | ⟨0, _⟩ => rfl
      | ⟨1, _⟩ => rfl⟩
  have e : ((cfg0.win 3).blk t).view.emb (ix2 p q)
      = ix2 (⟨win0_3.index t (0 : Fin 2) * 512 + p.val, by omega⟩ : Fin 8192) (⟨win0_3.index t (1 : Fin 2) * 1024 + q.val, by omega⟩ : Fin 4096) :=
    funext fun a => Fin.ext (by
      match a with
      | ⟨0, _⟩ => show win0_3.index t (0 : Fin 2) * 512 + 1 * p.val = win0_3.index t (0 : Fin 2) * 512 + p.val; omega
      | ⟨1, _⟩ => show win0_3.index t (1 : Fin 2) * 1024 + 1 * q.val = win0_3.index t (1 : Fin 2) * 1024 + q.val; omega)
  show k0_pay1 (F := Ideal) (iblk m c 0 t) (iblk m c 1 t) (iblk m c 2 t) (ix2 p q) = layer m c (((cfg0.win 3).blk t).view.emb (ix2 p q))
  rw [e]
  exact stored_entry m c t p q _ _ rfl rfl

/-- An index of the output is in point `t`'s tile iff each coordinate is in the tile's range on its axis. -/
theorem mem_tile (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- The tiles fill the output: entry (r, o) lies in the tile of the point with tile row r / 512 and tile column o / 1024. -/
theorem tiles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := tile_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE OUTPUT ARRAY after the run is the layer of the launch arguments. -/
theorem final (c : Dev nD) : (dats m 0 c).arrAt 3 cfg0.N = layer m c :=
  (dats m 0 c).arrAt_eq_of_cover 3 (layer m c) (fun t _ => flushed_eq m c t) tiles_cover

/-- The run, read: every weakly fair execution ends with the output array at the layer and the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  The certificate of a dense linear layer with a blockwise symmetrized weight.

  Both programs first symmetrize the weight — its leading 4092 × 4092 core, cut into 341 × 341 blocks of 12 × 12, is
  averaged with its blockwise transpose and written back over the core — by the same host operations with the same
  constants; that function of the weight is carried as one term and never opened.

  The kernel then rounds the input and the symmetrized weight to a narrower float format (the identity on the
  extended reals), transposes the weight, and runs a 4 × 16 grid: point (j, i) multiplies a 512-row tile of the input
  by a 1024-column tile of the transposed weight into a zero accumulator and adds the bias tile, writing tile (i, j)
  of the output.  The reference contracts the input's and the weight's feature axes in one product and adds the
  broadcast bias.  Over the extended reals both are, at row r and output o,

      Σ_k  x[r, k] · symW(w)[o, k]   +   b[o]:

  the tile product into zero is the plain sum over k, the 64 tiles fill the output, and no law beyond reading each
  operation at an index is needed — in particular finiteness of the inputs is never used.
-/
import proofs.«159672_j25005299597540_2_alg».proof.Defs
import proofs.«159672_j25005299597540_2_alg».proof.Proof.Gen.Kernel
import proofs.«159672_j25005299597540_2_alg».proof.Proof.Gen.Kernel.Skeleton
import proofs.«159672_j25005299597540_2_alg».proof.Proof.Gen.Kernel.Launch
import proofs.«159672_j25005299597540_2_alg».proof.Proof.Gen.Kernel.Points
import proofs.«159672_j25005299597540_2_alg».proof.Proof.Gen.Kernel.Frame
import proofs.«159672_j25005299597540_2_alg».proof.Proof.Gen.KernelIdeal
import proofs.«159672_j25005299597540_2_alg».proof.Proof.Gen.KernelIdeal.Skeleton
import proofs.«159672_j25005299597540_2_alg».proof.Proof.Gen.KernelIdeal.Launch
import proofs.«159672_j25005299597540_2_alg».proof.Proof.Gen.KernelIdeal.Points
import proofs.«159672_j25005299597540_2_alg».proof.Proof.Gen.KernelIdeal.Frame
import proofs.«159672_j25005299597540_2_alg».proof.Proof.Gen.ReferenceIdeal
import proofs.«159672_j25005299597540_2_alg».proof.Proof.Gen.KernelIdeal.Value
import proofs.«159672_j25005299597540_2_alg».proof.Proof.Gen.ReferenceIdeal.Run
import proofs.«159672_j25005299597540_2_alg».proof.Proof.Gen.ReferenceIdeal.Read
import proofs.«159672_j25005299597540_2_alg».proof.Proof.Gen.Pre_finite_inputs
import proofs.«159672_j25005299597540_2_alg».proof.Proof.Linear
import proofs.«159672_j25005299597540_2_alg».proof.Proof.RefLinear
import proofs.«159672_j25005299597540_2_alg».proof.Proof.Blocks
import Idealize.ShloMosaic.Adequacy
import Idealize.ShloMosaic.Init

noncomputable section

namespace Cert.Proof

open Idealize.ShloMosaic Idealize.ShloMosaic.TcCoe Idealize.SL.Sem

/-- The symmetrized weight is one function of the weight in both programs: the same operations, shapes and constants. -/
theorem symW_eq (w : (⟨Cert.KernelIdeal.S4096x4096, .f32⟩ : BufTy).Contents (Elt Ideal)) :
    Cert.ReferenceIdeal.Read.val_main_v10 (F := Ideal) w = Cert.KernelIdeal.Entry.symW (F := Ideal) w := by
  unfold Cert.ReferenceIdeal.Read.val_main_v10 Cert.KernelIdeal.Entry.symW
  -- both sides are one scatter, into the weight, at the same start indices, of the same averaged core
  refine congr (congr (congrArg (Host.scatter Cert.KernelIdeal.scatter_S4096x4096_S2_S4092x4092_01_n_01_0 (fun _ b => b)) ?_) ?_) ?_ <;> rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the arguments the kernel's output array ends at the layer of its arguments (the tiles
    assembled) and the reference's result at the layer of its own (its stages read at an index): one array. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1, (hagree c).2.2, symW_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
